-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x4096 : Shape := ⟨2, ![1, 4096]⟩
abbrev S8192x4096 : Shape := ⟨2, ![8192, 4096]⟩
abbrev S128x4096 : Shape := ⟨2, ![128, 4096]⟩

abbrev nBuf : Space → Nat
  | .hbm => 16
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S1x4096, .f32⟩
  | .hbm, ⟨12, _⟩ => ⟨S8192x4096, .f32⟩
  | .hbm, ⟨13, _⟩ => ⟨S8192x4096, .bf16⟩
  | .hbm, ⟨14, _⟩ => ⟨S8192x4096, .f32⟩
  | .hbm, ⟨15, _⟩ => ⟨S4x2048x4096, .f32⟩
  | .local _ .vmem, ⟨0, _⟩ => ⟨S128x4096, .bf16⟩
  | .local _ .vmem, ⟨1, _⟩ => ⟨S128x4096, .bf16⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  shapeCasts_S4x2048x4096_S8192x4096 : S4x2048x4096.ShapeCasts S8192x4096
  shapeCasts_S8192x4096_S4x2048x4096 : S8192x4096.ShapeCasts S4x2048x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S4096x16_S16x4096_S4096x4096_1_0_0_1_n_n_wf : DotDims.WF S4096x16 S16x4096 S4096x4096 [1] [0] [0] [1] [] []
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .bf16 = 32 ∨ (Rect.block (s := S8192x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_call0_v7) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibMergeRows.lean ====
/-
  The leading two axes of a rank-3 array merged into one, and split again, read at an index.

  An `[n, a, b]` array and an `[n·a, b]` matrix hold the same elements in row-major order: row `p·a + i` of the
  matrix is the slab entry `(p, i, ·)`.  Both directions of the cast are stated with the merged row number `P` given
  as a variable together with the equation `P = p·a + i`, so that a caller can supply whatever spelling of the row
  number its own arithmetic produces.
-/
import Idealize.ShloMosaic.Lib.Pipeline.Value
import Idealize.ShloMosaic.Lib.ValueIdx

noncomputable section

namespace Cert.MergeRows

open Idealize.ShloMosaic Idealize.ShloMosaic.ValueIdx

variable {α : Type}

/-- `[n, a, b]` cast to `[N, b]`: entry `(P, j)` with `P = p·a + i` is the operand's entry `(p, i, j)`. -/
theorem shapeCast_merge_apply {n a b N : ℕ} (x : (⟨3, ![n, a, b]⟩ : Shape).Idx → α)
    (h : (⟨3, ![n, a, b]⟩ : Shape).ShapeCasts ⟨2, ![N, b]⟩) (p : Fin n) (i : Fin a) (j : Fin b) (P : Fin N)
    (hP : P.val = p.val * a + i.val) : shapeCast ⟨2, ![N, b]⟩ x h (ix2 P j) = x (ix3 p i j) :=
  shapeCast_apply x h _ _ (by
    rw [Shape.rowMajor_val_three, Shape.rowMajor_val_two]
    show (p.val * a + i.val) * b + j.val = P.val * b + j.val
    rw [hP])

/-- `[N, b]` cast to `[n, a, b]`: entry `(p, i, j)` is the operand's entry `(P, j)` with `P = p·a + i`. -/
theorem shapeCast_split_apply {n a b N : ℕ} (x : (⟨2, ![N, b]⟩ : Shape).Idx → α)
    (h : (⟨2, ![N, b]⟩ : Shape).ShapeCasts ⟨3, ![n, a, b]⟩) (p : Fin n) (i : Fin a) (j : Fin b) (P : Fin N)
    (hP : P.val = p.val * a + i.val) : shapeCast ⟨3, ![n, a, b]⟩ x h (ix3 p i j) = x (ix2 P j) :=
  shapeCast_apply x h _ _ (by
    rw [Shape.rowMajor_val_two, Shape.rowMajor_val_three]
    show P.val * b + j.val = (p.val * a + i.val) * b + j.val
    rw [hP])

end Cert.MergeRows

end
-- ==== Proof.KernelArrays.lean ====
/-
  What the kernel's region finds in its three operand arrays, and what its body computes from three blocks, read at
  an index over the extended reals.

  Before the region the program prepares, from the arguments `x` (input `[4, 2048, 4096]`), `W`, `β`, `A`, `B`:
  * the rows array `[8192, 4096]`: `x` with its two leading axes merged, row `b · 2048 + s` being `x (b, s, ·)`
    (the narrowing to bf16 is the identity on the extended reals);
  * the folded weight `[4096, 4096]`: `W (o, k) + 2 · Σ_r B (o, r) · A (r, k)` (again narrowed, again the identity);
  * the bias as one row `[1, 4096]`.
  The body multiplies a block of 128 rows with the whole folded weight, contracting the second axis of both, into a zero
  accumulator, and adds the bias row to every row: entry `(p, q)` of its result is
  `Σ_k rows (p, k) · weight (q, k) + bias (0, q)`.
-/
import proofs.«127542_j11836929868064_2_alg».proof.Proof.Gen.KernelIdeal.Frame
import proofs.«127542_j11836929868064_2_alg».proof.Proof.LibMergeRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The arrays as the region finds them -/

/-- The five argument arrays on core `c`, as vectors of extended reals. -/
abbrev argX (c : Dev nD) : FVec Ideal S4x2048x4096 .f32 := m ((c : Thread nD τ).loc main_arg0)
abbrev argW (c : Dev nD) : FVec Ideal S4096x4096 .f32 := m ((c : Thread nD τ).loc main_arg1)
abbrev argβ (c : Dev nD) : FVec Ideal S4096 .f32 := m ((c : Thread nD τ).loc main_arg2)
abbrev argA (c : Dev nD) : FVec Ideal S16x4096 .f32 := m ((c : Thread nD τ).loc main_arg3)
abbrev argB (c : Dev nD) : FVec Ideal S4096x16 .f32 := m ((c : Thread nD τ).loc main_arg4)

/-- The three operand arrays of the region, as it finds them. -/
abbrev rowsArr (c : Dev nD) : FVec Ideal S8192x4096 .bf16 := V m c main_call0_v7
abbrev weightArr (c : Dev nD) : FVec Ideal S4096x4096 .bf16 := V m c main_call0_v4
abbrev biasArr (c : Dev nD) : FVec Ideal S1x4096 .f32 := V m c main_call0_v5

/-- The rows array: the input with its leading axes merged (and narrowed, which changes nothing here). -/
theorem rows_eq (c : Dev nD) :
    rowsArr m c = truncf .bf16 (shapeCast S8192x4096 (argX m c) Facts₀.shapeCasts_S4x2048x4096_S8192x4096) Facts₀.bitsLt_bf16_f32 := by
  show StableHlo.after hostOps0 (fun b => m (c, b)) (Proc.devRef .tc main_call0_v7) = _
  after_results
  rfl

/-- The weight array: the base weight plus twice the product of the two low-rank factors (narrowed). -/
theorem weight_eq (c : Dev nD) :
    weightArr m c = truncf .bf16 (addf (argW m c)
          (mulf (broadcastInDim S4096x4096 ![] Facts₀.bcast_S_S4096x4096 (constant (F := Ideal) S_ .f32 0x40000000#32))
            (Host.dotGeneral dot_S4096x16_S16x4096_S4096x4096_1_0_0_1_n_n none (argB m c) (argA m c))))
          Facts₀.bitsLt_bf16_f32 := by
  show StableHlo.after hostOps0 (fun b => m (c, b)) (Proc.devRef .tc main_call0_v4) = _
  after_results
  rfl

/-- The bias array: the bias vector laid out as one row. -/
theorem bias_eq (c : Dev nD) :
    biasArr m c = shapeCast S1x4096 (argβ m c) Facts₀.shapeCasts_S4096_S1x4096 := by
  show StableHlo.after hostOps0 (fun b => m (c, b)) (Proc.devRef .tc main_call0_v5) = _
  after_results
  rfl

/-! ## The same arrays read at an index -/

/-- Row `P = b · 2048 + s` of the rows array is `x (b, s, ·)`. -/
theorem rows_apply (c : Dev nD) (b : Fin 4) (s : Fin 2048) (k : Fin 4096) (P : Fin 8192) (hP : P.val = b.val * 2048 + s.val) :
    rowsArr m c (ix2 P k) = argX m c (ix3 b s k) := by
  rw [rows_eq]
  exact Cert.MergeRows.shapeCast_merge_apply (argX m c) _ b s k P hP

/-- The bias array's one row at `o` is the bias vector at `o`. -/
theorem bias_apply (c : Dev nD) (u : Fin 1) (o : Fin 4096) : biasArr m c (ix2 u o) = argβ m c (ix1 o) := by
  rw [bias_eq]
  exact shapeCast_a_1a_apply (argβ m c) _ u o

/-! ### The product of the two low-rank factors

`B` is `[4096, 16]` and `A` is `[16, 4096]`; the product contracts `B`'s second axis with `A`'s first. -/

theorem lowrank_lhs0 (i : S4096x4096.Idx) (q : dot_S4096x16_S16x4096_S4096x4096_1_0_0_1_n_n.contr.Idx) : (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem lowrank_lhs1 (i : S4096x4096.Idx) (q : dot_S4096x16_S16x4096_S4096x4096_1_0_0_1_n_n.contr.Idx) : (dot_S4096x16_S16x4096_S4096x4096_1_0_0_1_n_n.lhsIdx i q 1).val = (q ⟨0, by decide⟩).val :=
  dot_S4096x16_S16x4096_S4096x4096_1_0_0_1_n_n.lhsIdx_val_of_single rfl i q
theorem lowrank_rhs0 (i : S4096x4096.Idx) (q : dot_S4096x16_S16x4096_S4096x4096_1_0_0_1_n_n.contr.Idx) : (dot_S4096x16_S16x4096_S4096x4096_1_0_0_1_n_n.rhsIdx i q 0).val = (q ⟨0, by decide⟩).val :=
  dot_S4096x16_S16x4096_S4096x4096_1_0_0_1_n_n.rhsIdx_val_of_single rfl i q
theorem lowrank_rhs1 (i : S4096x4096.Idx) (q : dot_S4096x16_S16x4096_S4096x4096_1_0_0_1_n_n.contr.Idx) : (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- Entry `(o, k)` of `B · A` is `Σ_r B (o, r) · A (r, k)`. -/
theorem lowrank_apply (Bm : FVec Ideal S4096x16 .f32) (Am : FVec Ideal S16x4096 .f32) (o k : Fin 4096) :
    Host.dotGeneral (F := Ideal) dot_S4096x16_S16x4096_S4096x4096_1_0_0_1_n_n none Bm Am (ix2 o k) = ∑ r : Fin 16, Bm (ix2 o r) * Am (ix2 r k) := by
  simp only [Host.dotGeneral]
  rw [Ideal.dotGeneral_apply, ← Equiv.sum_comp (contrEquiv1 dot_S4096x16_S16x4096_S4096x4096_1_0_0_1_n_n 16 rfl rfl).symm]
  refine Finset.sum_congr rfl fun r _ => ?_
  have hk := contrEquiv1_symm_val dot_S4096x16_S16x4096_S4096x4096_1_0_0_1_n_n 16 rfl rfl r
  have el : dot_S4096x16_S16x4096_S4096x4096_1_0_0_1_n_n.lhsIdx (ix2 o k) ((contrEquiv1 dot_S4096x16_S16x4096_S4096x4096_1_0_0_1_n_n 16 rfl rfl).symm r) = ix2 o r := funext fun a => Fin.ext (by
    match a with
    | ⟨0, _⟩ => exact lowrank_lhs0 _ _
    | ⟨1, _⟩ => exact (lowrank_lhs1 _ _).trans hk)
  have er : dot_S4096x16_S16x4096_S4096x4096_1_0_0_1_n_n.rhsIdx (ix2 o k) ((contrEquiv1 dot_S4096x16_S16x4096_S4096x4096_1_0_0_1_n_n 16 rfl rfl).symm r) = ix2 r k := funext fun a => Fin.ext (by
    match a with
    | ⟨0, _⟩ => exact (lowrank_rhs0 _ _).trans hk
    | ⟨1, _⟩ => exact lowrank_rhs1 _ _)
  rw [el, er]

/-- Entry `(o, k)` of the weight array: the base weight plus the scaling word times the low-rank product. -/
theorem weight_apply (c : Dev nD) (o k : Fin 4096) :
    weightArr m c (ix2 o k)
      = argW m c (ix2 o k) + Ideal.ofBits .f32 0x40000000#32 * ∑ r : Fin 16, argB m c (ix2 o r) * argA m c (ix2 r k) := by
  rw [weight_eq]
  show argW m c (ix2 o k) + Ideal.ofBits .f32 0x40000000#32 * Host.dotGeneral (F := Ideal) dot_S4096x16_S16x4096_S4096x4096_1_0_0_1_n_n none (argB m c) (argA m c) (ix2 o k) = _
  rw [lowrank_apply]

/-! ## The body's result at an index

The body's product contracts the second axis of the row block with the second axis of the weight. -/

theorem body_lhs0 (i : S128x4096.Idx) (q : dot_S128x4096_S4096x4096_S128x4096_1_1_0_0_n_n.contr.Idx) : (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem body_lhs1 (i : S128x4096.Idx) (q : dot_S128x4096_S4096x4096_S128x4096_1_1_0_0_n_n.contr.Idx) : (dot_S128x4096_S4096x4096_S128x4096_1_1_0_0_n_n.lhsIdx i q 1).val = (q ⟨0, by decide⟩).val :=
  dot_S128x4096_S4096x4096_S128x4096_1_1_0_0_n_n.lhsIdx_val_of_single rfl i q
theorem body_rhs0 (i : S128x4096.Idx) (q : dot_S128x4096_S4096x4096_S128x4096_1_1_0_0_n_n.contr.Idx) : (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem body_rhs1 (i : S128x4096.Idx) (q : dot_S128x4096_S4096x4096_S128x4096_1_1_0_0_n_n.contr.Idx) : (dot_S128x4096_S4096x4096_S128x4096_1_1_0_0_n_n.rhsIdx i q 1).val = (q ⟨0, by decide⟩).val :=
  dot_S128x4096_S4096x4096_S128x4096_1_1_0_0_n_n.rhsIdx_val_of_single rfl i q

/-- The body's product into the zero accumulator, at `(p, q)`: `Σ_k rows (p, k) · weight (q, k)`. -/
theorem body_product_apply (x0 : FVec Ideal S128x4096 .bf16) (x1 : FVec Ideal S4096x4096 .bf16) (p : Fin 128) (q : Fin 4096) :
    matmul (F := Ideal) dot_S128x4096_S4096x4096_S128x4096_1_1_0_0_n_n none x0 x1 (constant S128x4096 .f32 0x00000000#32) (ix2 p q)
      = ∑ k : Fin 4096, x0 (ix2 p k) * x1 (ix2 q k) := by
  simp only [matmul]
  rw [Ideal.matmul_constant_zero_apply, ← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p q) ((contrEquiv1 dot_S128x4096_S4096x4096_S128x4096_1_1_0_0_n_n 4096 rfl rfl).symm k) = ix2 p k := funext fun a => Fin.ext (by
    match a with
    | ⟨0, _⟩ => exact body_lhs0 _ _
    | ⟨1, _⟩ => exact (body_lhs1 _ _).trans hk)
  have er : dot_S128x4096_S4096x4096_S128x4096_1_1_0_0_n_n.rhsIdx (ix2 p q) ((contrEquiv1 dot_S128x4096_S4096x4096_S128x4096_1_1_0_0_n_n 4096 rfl rfl).symm k) = ix2 q k := funext fun a => Fin.ext (by
    match a with
    | ⟨0, _⟩ => exact body_rhs0 _ _
    | ⟨1, _⟩ => exact (body_rhs1 _ _).trans hk)
  rw [el, er]

/-- The body's stored value at `(p, q)`: the product of row `p` of the row block with row `q` of the weight, plus the
    bias row at `q`. -/
theorem body_apply (x0 : Vec Ideal S128x4096 .bf16) (x1 : Vec Ideal S4096x4096 .bf16) (x2 : Vec Ideal S1x4096 .f32)
    (p : Fin 128) (q : Fin 4096) :
    k0_pay1 x0 x1 x2 (ix2 p q) = (∑ k : Fin 4096, x0 (ix2 p k) * x1 (ix2 q k)) + x2 (ix2 (0 : Fin 1) q) := by
  unfold k0_pay1
  simp only [shapeCast_self]
  rw [addf_apply, body_product_apply, broadcastTo_1b_ab_apply]

end Cert.KernelIdeal.Arrays

end
-- ==== Proof.KernelWhole.lean ====
/-
  The kernel's output matrix after the run, as one function of the three operand arrays.

  The grid has 64 points; point `t` reads rows `128 t … 128 t + 127` of the rows array, the whole weight array and the
  whole bias row, and writes rows `128 t … 128 t + 127` of the output matrix `[8192, 4096]`.  Entry `(P, q)` of the output
  is therefore `Σ_k rows (P, k) · weight (q, k) + bias (0, q)`, whichever point wrote it, and the 64 blocks of 128 rows
  cover the matrix.
-/
import proofs.«127542_j11836929868064_2_alg».proof.Proof.KernelArrays

set_option maxRecDepth 16384

noncomputable section

namespace Cert.KernelIdeal.Whole

open Cert.KernelIdeal Cert.KernelIdeal.Gen Cert.KernelIdeal.Arrays
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The output matrix: row `P` of the rows array against row `q` of the weight array, plus the bias row at `q`. -/
def outRows (c : Dev nD) : FVec Ideal S8192x4096 .f32 := fun j =>
  (∑ k : Fin 4096, rowsArr m c (ix2 (j 0) k) * weightArr m c (ix2 (j 1) k)) + biasArr m c (ix2 (0 : Fin 1) (j 1))

/-- The block index maps over the grid: the rows window and the output window are at block `(t, 0)`, the weight and the
    bias windows stay at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows window's block at point `t`, entry `(p, k)`, is the rows array at `(128 t + p, k)`. -/
theorem rowBlock_apply (c : Dev nD) (t : Fin cfg0.N) (p : Fin 128) (k : Fin 4096) (P : Fin 8192) (hP : P.val = t.val * 128 + p.val) :
    (iblk m c 0 t : Vec Ideal S128x4096 .bf16) (ix2 p k) = rowsArr m c (ix2 P k) := by
  obtain ⟨e0, e1, -⟩ := block_indices t
  unfold iblk
  rw [View.read_apply]
  show V m c main_call0_v7 _ = V m c main_call0_v7 _
  congr 1
  funext a
  apply Fin.ext
  match a with
  | ⟨0, _⟩ => show win0_0.index t (0 : Fin 2) * 128 + 1 * p.val = P.val; rw [e0, hP]; omega
  | ⟨1, _⟩ => show win0_0.index t (1 : Fin 2) * 4096 + 1 * k.val = k.val; rw [e1]; omega

/-- The weight window's block at any point is the whole weight array. -/
theorem weightBlock_apply (c : Dev nD) (t : Fin cfg0.N) (o k : Fin 4096) :
    (iblk m c 1 t : Vec Ideal S4096x4096 .bf16) (ix2 o k) = weightArr m c (ix2 o k) := by
  obtain ⟨-, -, e2, e3, -⟩ := block_indices t
  unfold iblk
  rw [View.read_apply]
  show V m c main_call0_v4 _ = V m c main_call0_v4 _
  congr 1
  funext a
  apply Fin.ext
  match a with
  | ⟨0, _⟩ => show win0_1.index t (0 : Fin 2) * 4096 + 1 * o.val = o.val; rw [e2]; omega
  | ⟨1, _⟩ => show win0_1.index t (1 : Fin 2) * 4096 + 1 * k.val = k.val; rw [e3]; omega

/-- The bias window's block at any point is the whole bias row. -/
theorem biasBlock_apply (c : Dev nD) (t : Fin cfg0.N) (u : Fin 1) (q : Fin 4096) :
    (iblk m c 2 t : Vec Ideal S1x4096 .f32) (ix2 u q) = biasArr m c (ix2 u q) := by
  obtain ⟨-, -, -, -, e4, e5, -⟩ := block_indices t
  unfold iblk
  rw [View.read_apply]
  show V m c main_call0_v5 _ = V m c main_call0_v5 _
  congr 1
  funext a
  apply Fin.ext
  match a with
  | ⟨0, _⟩ => show win0_2.index t (0 : Fin 2) * 1 + 1 * u.val = u.val; rw [e4]; omega
  | ⟨1, _⟩ => show win0_2.index t (1 : Fin 2) * 4096 + 1 * q.val = q.val; rw [e5]; omega

/-- The body's result at `(p, q)` of point `t`'s blocks is the output matrix at any index `E` naming row `128 t + p`,
    column `q`. -/
theorem body_is_outRows (c : Dev nD) (t : Fin cfg0.N) (p : Fin 128) (q : Fin 4096) (E : S8192x4096.Idx)
    (h0 : (E 0).val = t.val * 128 + p.val) (h1 : (E 1).val = q.val) :
    k0_pay1 (iblk m c 0 t) (iblk m c 1 t) (iblk m c 2 t) (ix2 p q) = outRows m c E := by
  refine (body_apply (iblk m c 0 t) (iblk m c 1 t) (iblk m c 2 t) p q).trans ?_
  unfold outRows
  have hq : E 1 = q := Fin.ext h1
  rw [hq]
  refine congrArg₂ (· + ·) (Finset.sum_congr rfl fun k _ => congrArg₂ (· * ·) ?_ ?_) ?_
  · exact rowBlock_apply m c t p k (E 0) h0
  · exact weightBlock_apply m c t q k
  · exact biasBlock_apply m c t 0 q

/-- What point `t` writes back is block `t` of the output matrix. -/
theorem flushed_eq (c : Dev nD) (t : Fin cfg0.N) :
    (dats m 0 c).flushed 3 t = ((cfg0.win 3).blk t).view.read (Elt Ideal) (outRows m c) := by
  show (cfg0.win 3).cut (grid0.coords t) ((dats m 0 c).after 3 t) = _
  rw [after0_3]
  unfold out0_3
  rw [View.canon_unit_zero zero_offsets]
  simp only [View.ld_unit_zero (S := S128x4096) zero_offsets, View.ld_unit_zero (S := S4096x4096) zero_offsets,
    View.ld_unit_zero (S := S1x4096) zero_offsets]
  obtain ⟨-, -, -, -, -, -, e6, e7⟩ := block_indices t
  refine funext fun (j : S128x4096.Idx) => ?_
  obtain ⟨p, q, rfl⟩ : ∃ (p : Fin 128) (q : Fin 4096), j = ix2 p q := ⟨j 0, j 1, eq_ix2 j⟩
  refine body_is_outRows m c t p q (((cfg0.win 3).blk t).view.emb (ix2 p q)) ?_ ?_
  · show win0_3.index t (0 : Fin 2) * 128 + 1 * p.val = t.val * 128 + p.val
    rw [e6]; omega
  · show win0_3.index t (1 : Fin 2) * 4096 + 1 * q.val = q.val
    rw [e7]; omega

/-- An index of the output matrix is in point `t`'s block iff each coordinate is in the block's range. -/
theorem mem_block (t : Fin cfg0.N) (i : S8192x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_call0_v8).slice (win0_3.rect t)).set ↔ _
  rw [View.set_slice_whole, Rect.mem_set_unit]
  exact Iff.rfl

/-- Every row of the output matrix lies in the block of the point numbered by the row divided by 128. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 128 :=
    ⟨⟨(i 0).val / 128, by rw [show cfg0.N = 64 from N_0]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 128 ≤ (i 0).val ∧ (i 0).val < win0_3.index t (0 : Fin 2) * 128 + 128
    rw [e6, ht]; omega
  | ⟨1, _⟩ =>
    show win0_3.index t (1 : Fin 2) * 4096 ≤ (i 1).val ∧ (i 1).val < win0_3.index t (1 : Fin 2) * 4096 + 4096
    rw [e7]; omega

/-- The output matrix after the last point. -/
theorem final (c : Dev nD) : (dats m 0 c).arrAt 3 cfg0.N = outRows m c :=
  (dats m 0 c).arrAt_eq_of_cover 3 (outRows m c) (fun t _ => flushed_eq m c t) covered

end Cert.KernelIdeal.Whole

end
-- ==== Proof.LoraLaw.lean ====
/-
  The algebra behind a low-rank update folded into the weight matrix.

  For one output entry, write `x k` for the input row, `w k` for the row of the base weight, `a r k` and `b r` for the
  two low-rank factors, `c` for the scaling and `β` for the bias.  Folding the update into the weight gives
  `Σ_k x k · (w k + c · Σ_r b r · a r k) + β`, while applying it afterwards gives
  `(Σ_k x k · w k + β) + (Σ_r (Σ_k x k · a r k) · b r) · c`.  Over the real numbers the two agree: the product
  distributes over the inner sums, the two sums over `k` and `r` are exchanged, and the terms are reordered.  On the
  extended reals distributivity fails at the infinities, so the law is stated for entries that are coercions of reals and
  proved by pushing the coercion outwards.
-/
import Idealize.ShloMosaic.PureOps.Ideal

noncomputable section

namespace Cert.LoraLaw

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word `0x40000000` denotes the real number 2. -/
theorem word_two : Ideal.ofBits .f32 0x40000000#32 = ((2 : ℝ) : EReal) := by
  simp [Ideal.ofBits, Ideal.ieee, -EReal.coe_mul]; norm_num

/-- The f32 word `0x7F800000` denotes `+∞`. -/
theorem word_inf : Ideal.ofBits .f32 0x7F800000#32 = (⊤ : EReal) := by
  simp [Ideal.ofBits, Ideal.ieee]

/-- An extended real whose absolute value `max x (-x)` compares below `+∞` is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- The law over the reals. -/
theorem merged_eq_split_real {K R : Type} [Fintype K] [Fintype R] (x w : K → ℝ) (a : R → K → ℝ) (b : R → ℝ) (β c : ℝ) :
    (∑ k, x k * (w k + c * ∑ r, b r * a r k)) + β
      = ((∑ k, x k * w k) + β) + (∑ r, (∑ k, x k * a r k) * b r) * c := by
  have h : ∑ k, x k * (c * ∑ r, b r * a r k) = (∑ r, (∑ k, x k * a r k) * b r) * c := by
    simp only [Finset.mul_sum, Finset.sum_mul]
    rw [Finset.sum_comm]
    exact Finset.sum_congr rfl fun r _ => Finset.sum_congr rfl fun k _ => by ring
  simp only [mul_add, Finset.sum_add_distrib, h]
  ring

/-- The law on the extended reals, for entries that are reals: the weight with the low-rank update folded in, applied
    to a row, equals the base product plus bias plus the update applied afterwards and scaled. -/
theorem merged_eq_split {K R : Type} [Fintype K] [Fintype R] (x w : K → ℝ) (a : R → K → ℝ) (b : R → ℝ) (β c : ℝ) :
    (∑ k, (x k : EReal) * ((w k : EReal) + (c : EReal) * ∑ r, (b r : EReal) * (a r k : EReal))) + (β : EReal)
      = ((∑ k, (x k : EReal) * (w k : EReal)) + (β : EReal))
        + (∑ r, (∑ k, (x k : EReal) * (a r k : EReal)) * (b r : EReal)) * (c : EReal) := by
  simp only [← EReal.coe_mul, ← coe_sum, ← EReal.coe_add]
  exact congrArg _ (merged_eq_split_real x w a b β c)

end Cert.LoraLaw

end
-- ==== Proof.LoraSpec.lean ====
/-
  The two arrangements of a linear layer with a low-rank update, index by index, over literal shapes.

  `x` is the input `[4, 2048, 4096]`, `W` the base weight `[4096, 4096]` (output row, input column), `β` the bias
  `[4096]`, `A` the down factor `[16, 4096]` and `B` the up factor `[4096, 16]`; the scaling is the f32 word of 2.0.

  * `merged`: the update is folded into the weight first, `W' (o, k) = W (o, k) + 2 · Σ_r B (o, r) · A (r, k)`, and the
    output entry `(b, s, o)` is `Σ_k x (b, s, k) · W' (o, k) + β o`.
  * `split`: the base layer `Σ_k x (b, s, k) · W (o, k) + β o` plus the update applied to the input,
    `(Σ_r (Σ_k x (b, s, k) · A (r, k)) · B (o, r)) · 2`.

  When every entry of the five arrays is a real number the two are equal (`merged_eq_split`), by the law of
  `Cert.LoraLaw`; at an infinite entry distributivity fails on the extended reals and nothing is claimed.
-/
import proofs.«127542_j11836929868064_2_alg».proof.Proof.LoraLaw
import Idealize.ShloMosaic.Lib.ValueIdx

noncomputable section

namespace Cert.LoraSpec

open Idealize.ShloMosaic Idealize.ShloMosaic.ValueIdx

abbrev SX : Shape := ⟨3, ![4, 2048, 4096]⟩
abbrev SW : Shape := ⟨2, ![4096, 4096]⟩
abbrev Sβ : Shape := ⟨1, ![4096]⟩
abbrev SA : Shape := ⟨2, ![16, 4096]⟩
abbrev SB : Shape := ⟨2, ![4096, 16]⟩

/-- The scaling factor as the programs write it: the f32 word of 2.0, read as an extended real. -/
abbrev two : EReal := Ideal.ofBits .f32 0x40000000#32

/-- The weight with the low-rank update folded in, at (output row `o`, input column `k`). -/
def foldedWeight (W : SW.Idx → EReal) (A : SA.Idx → EReal) (B : SB.Idx → EReal) (o k : Fin 4096) : EReal :=
  W (ix2 o k) + two * ∑ r : Fin 16, B (ix2 o r) * A (ix2 r k)

/-- The layer with the update folded into the weight. -/
def merged (x : SX.Idx → EReal) (W : SW.Idx → EReal) (β : Sβ.Idx → EReal) (A : SA.Idx → EReal) (B : SB.Idx → EReal) :
    SX.Idx → EReal := fun i =>
  (∑ k : Fin 4096, x (ix3 (i 0) (i 1) k) * foldedWeight W A B (i 2) k) + β (ix1 (i 2))

/-- The base layer plus the update applied to the input and scaled. -/
def split (x : SX.Idx → EReal) (W : SW.Idx → EReal) (β : Sβ.Idx → EReal) (A : SA.Idx → EReal) (B : SB.Idx → EReal) :
    SX.Idx → EReal := fun i =>
  ((∑ k : Fin 4096, x (ix3 (i 0) (i 1) k) * W (ix2 (i 2) k)) + β (ix1 (i 2)))
    + (∑ r : Fin 16, (∑ k : Fin 4096, x (ix3 (i 0) (i 1) k) * A (ix2 r k)) * B (ix2 (i 2) r)) * two

/-- Every entry of an array is a real number. -/
def AllReal {s : Shape} (v : s.Idx → EReal) : Prop := ∀ i, ∃ r : ℝ, v i = (r : EReal)

/-- On arrays of real numbers the two arrangements agree at every output entry. -/
theorem merged_eq_split (x : SX.Idx → EReal) (W : SW.Idx → EReal) (β : Sβ.Idx → EReal) (A : SA.Idx → EReal)
    (B : SB.Idx → EReal) (hx : AllReal x) (hW : AllReal W) (hβ : AllReal β) (hA : AllReal A) (hB : AllReal B) :
    merged x W β A B = split x W β A B := by
  choose xr hxr using hx
  choose Wr hWr using hW
  choose βr hβr using hβ
  choose Ar hAr using hA
  choose Br hBr using hB
  funext i
  unfold merged split foldedWeight
  simp only [hxr, hWr, hβr, hAr, hBr, two, LoraLaw.word_two]
  exact LoraLaw.merged_eq_split (fun k : Fin 4096 => xr (ix3 (i 0) (i 1) k)) (fun k => Wr (ix2 (i 2) k))
    (fun (r : Fin 16) (k : Fin 4096) => Ar (ix2 r k)) (fun r => Br (ix2 (i 2) r)) (βr (ix1 (i 2))) 2

end Cert.LoraSpec

end
-- ==== Proof.KernelRun.lean ====
/-
  The kernel program's result array, as a function of its five arguments.

  After the region, the program views the output matrix `[8192, 4096]` as `[4, 2048, 4096]`: entry `(b, s, o)` is the
  matrix's entry `(b · 2048 + s, o)`.  With the operand arrays read back to the arguments, that entry is
  `Σ_k x (b, s, k) · (W (o, k) + 2 · Σ_r B (o, r) · A (r, k)) + β o` — the `merged` arrangement.  The run of the whole
  program ends with the result array at that function of the arguments and the arguments unchanged.
-/
import proofs.«127542_j11836929868064_2_alg».proof.Proof.KernelWhole
import proofs.«127542_j11836929868064_2_alg».proof.Proof.LoraSpec

set_option maxRecDepth 16384

noncomputable section

namespace Cert.KernelIdeal.Whole

open Cert.KernelIdeal Cert.KernelIdeal.Gen Cert.KernelIdeal.Arrays
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The one operation after the region, over any contents of the core's buffers: the result array is the region's
    output array viewed as `[4, 2048, 4096]`. -/
theorem tail_of (X : Valuation τ sig (Elt Ideal)) (Y : FVec Ideal S8192x4096 .f32) (hX : X (Proc.devRef .tc main_call0_v8) = Y) :
    (StableHlo.after hostOps1 X (Proc.devRef .tc main_v0) : FVec Ideal S4x2048x4096 .f32)
      = shapeCast S4x2048x4096 Y Facts₀.shapeCasts_S8192x4096_S4x2048x4096 := by
  subst hX
  after_results
  rfl

/-- The result array after the run's last operation is the output matrix with its rows split into `[4, 2048]`. -/
theorem result_eq (c : Dev nD) :
    (Pipeline.afterTail₀ cfgs (dats m) 0 (V0 m) [hostOps1] c main_v0 : FVec Ideal S4x2048x4096 .f32)
      = shapeCast S4x2048x4096 (outRows m c) Facts₀.shapeCasts_S8192x4096_S4x2048x4096 := by
  unfold Pipeline.afterTail₀
  show StableHlo.after hostOps1 _ (Proc.devRef .tc main_v0) = _
  exact tail_of _ (outRows m c) ((Pipeline.withArrays_arr spec0 launch0.win.arr_inj c _ _ 3).trans (final m c))

/-- That array is the `merged` arrangement of the five arguments. -/
theorem result_is_merged (c : Dev nD) :
    shapeCast S4x2048x4096 (outRows m c) Facts₀.shapeCasts_S8192x4096_S4x2048x4096
      = Cert.LoraSpec.merged (argX m c) (argW m c) (argβ m c) (argA m c) (argB m c) := by
  funext i
  obtain ⟨b, s, o, rfl⟩ : ∃ (b : Fin 4) (s : Fin 2048) (o : Fin 4096), i = ix3 b s o := ⟨i 0, i 1, i 2, eq_ix3 i⟩
  have hb : b.val < 4 := b.isLt
  have hs : s.val < 2048 := s.isLt
  rw [Cert.MergeRows.shapeCast_split_apply (outRows m c) _ b s o ⟨b.val * 2048 + s.val, by omega⟩ rfl]
  unfold outRows Cert.LoraSpec.merged Cert.LoraSpec.foldedWeight
  refine congrArg₂ (· + ·) (Finset.sum_congr rfl fun k _ => congrArg₂ (· * ·) ?_ ?_) ?_
  · exact rows_apply m c b s k _ rfl
  · exact weight_apply m c o k
  · exact bias_apply m c 0 o

/-- The run: every weakly fair execution terminates with the result array at `merged` of the arguments and the
    arguments unchanged. -/
theorem run : θ_run defs (onTc (τ := τ) (main (F := Ideal))) ⟨m, fun _ => 0, ρ⟩ fun r => ∀ c : Dev nD,
      r.2.mem ((c.tc : Thread nD τ).loc main_v0) = Cert.LoraSpec.merged (argX m c) (argW m c) (argβ m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans
        ((result_eq m c).trans (result_is_merged m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefValue.lean ====
/-
  The reference's result, index by index, is the `split` arrangement: the base layer `Σ_k x · W + β` plus the low-rank
  update applied to the input, `(Σ_r (Σ_k x · A) · B) · 2`.  Each of the reference's three products contracts the last
  axis of both operands, so its operand indices at output entry `(b, s, o)` and contraction position `k` are
  `(b, s, k)` on the left and `(o, k)` on the right; the bias is broadcast along the two leading axes.
-/
import proofs.«127542_j11836929868064_2_alg».proof.Proof.Gen.ReferenceIdeal.Read
import proofs.«127542_j11836929868064_2_alg».proof.Proof.LoraSpec

noncomputable section

namespace Cert.ReferenceIdeal.RefValue

open Cert.ReferenceIdeal Cert.ReferenceIdeal.Read Idealize.ShloMosaic Idealize.ShloMosaic.ValueIdx

/-- The reference's composed stages, read at an output entry, are the `split` arrangement of the five arguments. -/
theorem ref_is_split (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = Cert.LoraSpec.split x0 x1 x2 x3 x4 := by
  funext i
  have e0l : ∀ k : Fin 4096, lidx_main_v0 i k = ix3 (i 0) (i 1) k := fun k => funext fun a => Fin.ext (by
    match a with | ⟨0, _⟩ => rfl | ⟨1, _⟩ => rfl | ⟨2, _⟩ => rfl)
  have e0r : ∀ k : Fin 4096, ridx_main_v0 i k = ix2 (i 2) k := fun k => funext fun a => Fin.ext (by
    match a with | ⟨0, _⟩ => rfl | ⟨1, _⟩ => rfl)
  have e4l : ∀ (r : Fin 16) (k : Fin 4096), lidx_main_v4 (lidx_main_v5 i r) k = ix3 (i 0) (i 1) k := fun r k => funext fun a => Fin.ext (by
    match a with | ⟨0, _⟩ => rfl | ⟨1, _⟩ => rfl | ⟨2, _⟩ => rfl)
  have e4r : ∀ (r : Fin 16) (k : Fin 4096), ridx_main_v4 (lidx_main_v5 i r) k = ix2 r k := fun r k => funext fun a => Fin.ext (by
    match a with | ⟨0, _⟩ => rfl | ⟨1, _⟩ => rfl)
  have e5r : ∀ r : Fin 16, ridx_main_v5 i r = ix2 (i 2) r := fun r => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v8_apply, val_main_v3_apply, val_main_v0_apply, val_main_v2_apply, val_main_v1_apply, val_main_v7_apply,
    val_main_v5_apply, val_main_v6_apply, val_main_cst_apply]
  simp only [val_main_v4_apply, e0l, e0r, e4l, e4r, e5r, eb, Ideal.addf_def, Ideal.mulf_def, Ideal.ofBits_def]
  rfl

end Cert.ReferenceIdeal.RefValue

end
-- ==== Proof.FiniteArgs.lean ====
/-
  From the precondition to real numbers.

  The precondition tests, for each of the five float arguments, that every entry's absolute value compares below `+∞`,
  and conjoins the five tests.  On the extended reals an entry whose absolute value is below `+∞` is neither infinity,
  so it is a real number.  This is what lets the algebraic law (which needs distributivity) be used.
-/
import proofs.«127542_j11836929868064_2_alg».proof.Pre_finite_inputs
import proofs.«127542_j11836929868064_2_alg».proof.Proof.Gen.Pre_finite_inputs
import proofs.«127542_j11836929868064_2_alg».proof.Proof.LoraSpec
import Idealize.ShloMosaic.Lib.ReduceAll
import Idealize.ShloMosaic.Lib.ValueIdx

noncomputable section

namespace Cert.FiniteArgs

open Idealize.ShloMosaic Cert.Pre_finite_inputs

instance : Subsingleton S_.Idx := ⟨fun a b => funext fun d => d.elim0⟩

/-- One argument's test: if "all entries have absolute value below the word of `+∞`" came out true, every entry is a
    real number. -/
theorem allReal_of_test {s : Shape} {axes : List (Fin s.rank)} (v : FVec Ideal s .f32)
    (hb : S_.BroadcastsInDim s (![] : Fin 0 → Fin s.rank)) (hr : s.ReducesTo axes S_) (hS : 0 < S_.numel)
    (h : Host.reduce IntOp.andi (cmpf .olt (Host.absf v) (broadcastInDim s ![] hb (constant S_ .f32 0x7F800000#32)))
          (constantI S_ 1 1#1) hr hS ValueIdx.ix0 = 1#1) :
    Cert.LoraSpec.AllReal v := by
  intro i
  have e := Host.reduce_andi_all _ _ hr hS ValueIdx.ix0 h i
  refine Cert.LoraLaw.real_of_abs_lt_top (v i) ?_
  rw [← Cert.LoraLaw.word_inf]
  exact e

/-- The precondition gives: every entry of every argument is a real number. -/
theorem allReal_of_pre (a0 : FVec Ideal S4x2048x4096 .f32) (a1 : FVec Ideal S4096x4096 .f32) (a2 : FVec Ideal S4096 .f32)
    (a3 : FVec Ideal S16x4096 .f32) (a4 : FVec Ideal S4096x16 .f32)
    (h : fn (F := Ideal) a0 a1 a2 a3 a4 = fun _ => 1#1) :
    Cert.LoraSpec.AllReal a0 ∧ Cert.LoraSpec.AllReal a1 ∧ Cert.LoraSpec.AllReal a2 ∧ Cert.LoraSpec.AllReal a3
      ∧ Cert.LoraSpec.AllReal a4 := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨allReal_of_test a0 _ _ _ h0', allReal_of_test a1 _ _ _ h1, allReal_of_test a2 _ _ _ h2,
    allReal_of_test a3 _ _ _ h3, allReal_of_test a4 _ _ _ h4⟩

end Cert.FiniteArgs

end
-- ==== Proof.lean ====
/-
  A linear layer with a low-rank update, computed two ways, and the proof that the two agree on finite inputs.

  The kernel program folds the update into the weight once, `W' = W + 2 · (B · A)`, and then computes `x · W'ᵀ + β` with one
  product per block of 128 rows.  The reference computes the base layer `x · Wᵀ + β` and adds the update applied to the
  input, `((x · Aᵀ) · Bᵀ) · 2`.  Over the extended reals:

  * the kernel program's result array, read index by index through the host operations around the region and the
    region's 64 blocks, is the `merged` arrangement of the five arguments (`Cert.KernelIdeal.Whole.run`);
  * the reference's result, read through its operations' stages, is the `split` arrangement
    (`Cert.ReferenceIdeal.RefValue.ref_is_split`);
  * the precondition makes every entry of every argument a real number (`Cert.FiniteArgs.allReal_of_pre`), and on real
    entries `merged = split` by distributing the product over the inner sum and exchanging the two sums
    (`Cert.LoraSpec.merged_eq_split`).

  The three frames are the two kernel programs' runs with the results dropped and the reference's run likewise; the
  idealization rewrote nothing, so there is nothing to preserve.
-/
import proofs.«127542_j11836929868064_2_alg».proof.Defs
import proofs.«127542_j11836929868064_2_alg».proof.Proof.Gen.Kernel
import proofs.«127542_j11836929868064_2_alg».proof.Proof.Gen.Kernel.Skeleton
import proofs.«127542_j11836929868064_2_alg».proof.Proof.Gen.Kernel.Launch
import proofs.«127542_j11836929868064_2_alg».proof.Proof.Gen.Kernel.Points
import proofs.«127542_j11836929868064_2_alg».proof.Proof.Gen.Kernel.Frame
import proofs.«127542_j11836929868064_2_alg».proof.Proof.Gen.KernelIdeal
import proofs.«127542_j11836929868064_2_alg».proof.Proof.Gen.KernelIdeal.Skeleton
import proofs.«127542_j11836929868064_2_alg».proof.Proof.Gen.KernelIdeal.Launch
import proofs.«127542_j11836929868064_2_alg».proof.Proof.Gen.KernelIdeal.Points
import proofs.«127542_j11836929868064_2_alg».proof.Proof.Gen.KernelIdeal.Frame
import proofs.«127542_j11836929868064_2_alg».proof.Proof.Gen.ReferenceIdeal
import proofs.«127542_j11836929868064_2_alg».proof.Proof.Gen.Pre_finite_inputs
import proofs.«127542_j11836929868064_2_alg».proof.Proof.Gen.ReferenceIdeal.Run
import proofs.«127542_j11836929868064_2_alg».proof.Proof.Gen.ReferenceIdeal.Read
import proofs.«127542_j11836929868064_2_alg».proof.Proof.KernelRun
import proofs.«127542_j11836929868064_2_alg».proof.Proof.RefValue
import proofs.«127542_j11836929868064_2_alg».proof.Proof.FiniteArgs
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the same result array: the kernel program's is `merged` of the arguments,
    the reference's is `split` of the same arguments, and the two arrangements agree on real entries. -/
theorem algebraic : Cert.algebraic_KernelIdeal_ReferenceIdeal := by
  intro m ρ m' ρ' hpre hagree
  refine ⟨fun c => Cert.LoraSpec.merged (Cert.KernelIdeal.Arrays.argX m c) (Cert.KernelIdeal.Arrays.argW m c)
      (Cert.KernelIdeal.Arrays.argβ m c) (Cert.KernelIdeal.Arrays.argA m c) (Cert.KernelIdeal.Arrays.argB m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hβ, hA, hB⟩ := Cert.FiniteArgs.allReal_of_pre _ _ _ _ _ (hpre c)
  rw [Cert.ReferenceIdeal.Read.val_main_v8_eq, Cert.ReferenceIdeal.RefValue.ref_is_split,
    (hagree c).1, (hagree c).2.1, (hagree c).2.2.1, (hagree c).2.2.2.1, (hagree c).2.2.2.2]
  exact (Cert.LoraSpec.merged_eq_split _ _ _ _ _ hx hW hβ hA hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
